-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S5000x256 : Shape := ⟨2, ![5000, 256]⟩
abbrev S5000x16 : Shape := ⟨2, ![5000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x10 : Shape := ⟨2, ![100000, 10]⟩
abbrev S5000x10 : Shape := ⟨2, ![5000, 10]⟩
abbrev S3200000x10 : Shape := ⟨2, ![3200000, 10]⟩
abbrev S1x10 : Shape := ⟨2, ![1, 10]⟩

abbrev nBuf : Space → Nat
  | .hbm => 47
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S1x16, .f32⟩
  | .hbm, ⟨25, _⟩ => ⟨S100000x16, .f32⟩
  | .hbm, ⟨26, _⟩ => ⟨S100000x16, .f32⟩
  | .hbm, ⟨27, _⟩ => ⟨S_, .f32⟩
  | .hbm, ⟨28, _⟩ => ⟨S100000x16, .f32⟩
  | .hbm, ⟨29, _⟩ => ⟨S100000x16, .f32⟩
  | .hbm, ⟨30, _⟩ => ⟨S100000x10, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x10, .f32⟩
  | .hbm, ⟨40, _⟩ => ⟨S_, .f32⟩
  | .hbm, ⟨41, _⟩ => ⟨S100000x10, .f32⟩
  | .hbm, ⟨42, _⟩ => ⟨S3200000x1, .i32⟩
  | .hbm, ⟨43, _⟩ => ⟨S100000x10, .f32⟩
  | .hbm, ⟨44, _⟩ => ⟨S1x10, .f32⟩
  | .hbm, ⟨45, _⟩ => ⟨S100000x10, .f32⟩
  | .hbm, ⟨46, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x10, .f32⟩
  | .local _ .vmem, ⟨8, _⟩ => ⟨S5000x10, .f32⟩
  | .local _ .vmem, ⟨9, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x10_S16x10_0_0 : ∀ a, (![0, 0] : Fin 2 → Nat) a + S16x10.size a ≤ S16x10.size a
  h_S16x10 : 0 < S16x10.numel
  inb_S5000x10_S5000x10_0_0 : ∀ a, (![0, 0] : Fin 2 → Nat) a + S5000x10.size a ≤ S5000x10.size a
  h_S5000x10 : 0 < S5000x10.numel
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x10_S5000x10_1_0_0_1_n_n_wf : DotDims.WF S5000x16 S16x10 S5000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)

variable [Facts₀]

def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x10 : Shape := ⟨2, ![100000, 10]⟩
abbrev S3200000x10 : Shape := ⟨2, ![3200000, 10]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S1x16, .f32⟩
  | .hbm, ⟨25, _⟩ => ⟨S100000x16, .f32⟩
  | .hbm, ⟨26, _⟩ => ⟨S100000x16, .f32⟩
  | .hbm, ⟨27, _⟩ => ⟨S_, .f32⟩
  | .hbm, ⟨28, _⟩ => ⟨S100000x16, .f32⟩
  | .hbm, ⟨29, _⟩ => ⟨S100000x16, .f32⟩
  | .hbm, ⟨30, _⟩ => ⟨S100000x10, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x10, .f32⟩
  | .hbm, ⟨40, _⟩ => ⟨S_, .f32⟩
  | .hbm, ⟨41, _⟩ => ⟨S100000x10, .f32⟩
  | .hbm, ⟨42, _⟩ => ⟨S3200000x1, .i32⟩
  | .hbm, ⟨43, _⟩ => ⟨S100000x10, .f32⟩
  | .hbm, ⟨44, _⟩ => ⟨S1x10, .f32⟩
  | .hbm, ⟨45, _⟩ => ⟨S100000x10, .f32⟩
  | .hbm, ⟨46, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x10_S100000x10_1_0_0_1_n_n_wf : DotDims.WF S100000x16 S16x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.GraphConv.lean ====
/-
  A two-layer graph convolution as one function of its inputs.

  The edge list is a 2 × E array of node numbers: row 0 the sources, row 1 the targets.  A source number that is
  negative is read from the end (the node count is added to it).  One layer takes node features h (N × d), a
  weight W (d × d') and a bias b (d'): it forms the dense product h · W, looks up its row at every edge's
  source, adds that row into the row of the edge's target (starting from zero), and adds b to every row:

      out(i, f) = (sum over edges e with target(e) = i of (h · W)(source(e), f)) + b(f).

  The network is layer 1 from the inputs (256 features to 16), the rectifier max(·, 0), and layer 2 (16 to 10).
  Everything around the two dense products is named here once; the two programs compared differ only in how
  the dense products are computed.
-/
import proofs.«168262_j40123584479271_1_alg».proof.Proof.Gen.ReferenceIdeal

noncomputable section

namespace Cert.Hand.GraphConv

open Cert.ReferenceIdeal Cert.ReferenceIdeal.Gen Idealize.ShloMosaic

variable {F : FTy → Type} [FloatOps F]

/-- Row 0 of the edge list: each edge's source node. -/
def sources (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- Row 1 of the edge list: each edge's target node. -/
def targets (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node number read from the end when negative: the node count 100000 is added to it. -/
def fromEnd (s : (⟨S3200000, .i32⟩ : BufTy).Contents (Elt F)) : (⟨S3200000, .i32⟩ : BufTy).Contents (Elt F) :=
  select (cmpi .slt s (broadcastInDim S3200000 ![] bcast_S_S3200000 (constantI S_ 32 0#32)))
    (addi s (broadcastInDim S3200000 ![] bcast_S_S3200000 (constantI S_ 32 100000#32))) s

/-- The first dense product: features (100000 × 256) by weight (256 × 16). -/
def dense16 (x : (⟨S100000x256, .f32⟩ : BufTy).Contents (Elt F)) (w : (⟨S256x16, .f32⟩ : BufTy).Contents (Elt F)) : (⟨S100000x16, .f32⟩ : BufTy).Contents (Elt F) :=
  Host.dotGeneral dot_S100000x256_S256x16_S100000x16_1_0_0_1_n_n none x w

/-- The second dense product: hidden features (100000 × 16) by weight (16 × 10). -/
def dense10 (h : (⟨S100000x16, .f32⟩ : BufTy).Contents (Elt F)) (w : (⟨S16x10, .f32⟩ : BufTy).Contents (Elt F)) : (⟨S100000x10, .f32⟩ : BufTy).Contents (Elt F) :=
  Host.dotGeneral dot_S100000x16_S16x10_S100000x10_1_0_0_1_n_n none h w

/-- Layer 1 after its dense product: rows looked up at the sources, summed into the targets' rows, the bias
    added to every row. -/
def gather_sum16 (p : (⟨S100000x16, .f32⟩ : BufTy).Contents (Elt F)) (e : (⟨S2x3200000, .i32⟩ : BufTy).Contents (Elt F)) (b : (⟨S16, .f32⟩ : BufTy).Contents (Elt F)) :
    (⟨S100000x16, .f32⟩ : BufTy).Contents (Elt F) :=
  addf (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0 (targets e))
      (Host.gather gather_S100000x16_S3200000x1_S3200000x16_1_0_n_n_0_1_116 p
        (broadcastInDim S3200000x1 ![0] bcast_S3200000_S3200000x1_0 (fromEnd (sources e)))))
    (broadcastInDim S100000x16 ![0, 1] bcast_S1x16_S100000x16_0_1 (broadcastInDim S1x16 ![1] bcast_S16_S1x16_1 b))

/-- The rectifier on the hidden features: the larger of each entry and zero. -/
def rectify (a : (⟨S100000x16, .f32⟩ : BufTy).Contents (Elt F)) : (⟨S100000x16, .f32⟩ : BufTy).Contents (Elt F) :=
  maximumf a (broadcastInDim S100000x16 ![] bcast_S_S100000x16 (constant S_ .f32 0x00000000#32))

/-- Layer 2 after its dense product: the same aggregation on 10 columns. -/
def gather_sum10 (p : (⟨S100000x10, .f32⟩ : BufTy).Contents (Elt F)) (e : (⟨S2x3200000, .i32⟩ : BufTy).Contents (Elt F)) (b : (⟨S10, .f32⟩ : BufTy).Contents (Elt F)) :
    (⟨S100000x10, .f32⟩ : BufTy).Contents (Elt F) :=
  addf (Host.scatterAdd scatter_S100000x10_S3200000x1_S3200000x10_1_0_0_1
      (broadcastInDim S100000x10 ![] bcast_S_S100000x10 (constant S_ .f32 0x00000000#32))
      (broadcastInDim S3200000x1 ![0] bcast_S3200000_S3200000x1_0 (targets e))
      (Host.gather gather_S100000x10_S3200000x1_S3200000x10_1_0_n_n_0_1_110 p
        (broadcastInDim S3200000x1 ![0] bcast_S3200000_S3200000x1_0 (fromEnd (sources e)))))
    (broadcastInDim S100000x10 ![0, 1] bcast_S1x10_S100000x10_0_1 (broadcastInDim S1x10 ![1] bcast_S10_S1x10_1 b))

/-- The hidden features: layer 1 and the rectifier. -/
def hidden (x : (⟨S100000x256, .f32⟩ : BufTy).Contents (Elt F)) (e : (⟨S2x3200000, .i32⟩ : BufTy).Contents (Elt F)) (w1 : (⟨S256x16, .f32⟩ : BufTy).Contents (Elt F)) (b1 : (⟨S16, .f32⟩ : BufTy).Contents (Elt F)) :
    (⟨S100000x16, .f32⟩ : BufTy).Contents (Elt F) :=
  rectify (gather_sum16 (dense16 x w1) e b1)

/-- The network's output. -/
def net (x : (⟨S100000x256, .f32⟩ : BufTy).Contents (Elt F)) (e : (⟨S2x3200000, .i32⟩ : BufTy).Contents (Elt F)) (w1 : (⟨S256x16, .f32⟩ : BufTy).Contents (Elt F)) (b1 : (⟨S16, .f32⟩ : BufTy).Contents (Elt F))
    (w2 : (⟨S16x10, .f32⟩ : BufTy).Contents (Elt F)) (b2 : (⟨S10, .f32⟩ : BufTy).Contents (Elt F)) : (⟨S100000x10, .f32⟩ : BufTy).Contents (Elt F) :=
  gather_sum10 (dense10 (hidden x e w1 b1) w2) e b2

end Cert.Hand.GraphConv

end
-- ==== Proof.KernelRun.lean ====
/-
  The idealized kernel's whole run, with the result buffer named.

  @main is six segments in order: the host operations that cut the edge list into its two rows, the first
  dense product (a grid of 20 row blocks), the host operations of the first aggregation and the rectifier, the
  second dense product, and the host operations of the second aggregation.  Every weakly fair execution
  terminates with every buffer of the device at the contents the last segment leaves.  Read at the result
  buffer this names the result; read at an argument it gives back the launch contents, since no segment
  writes an argument.
-/
import proofs.«168262_j40123584479271_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents
    the last segment leaves there and every argument as launched. -/
theorem run_named : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Hand

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«168262_j40123584479271_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.DenseBlocks16.lean ====
/-
  The first dense product, computed block by block, is the whole product.

  The 100000 × 256 features are cut into 20 blocks of 5000 rows.  Grid point t multiplies block t by the whole
  256 × 16 weight, accumulating into zero, and writes the 5000 × 16 result back as block t of the output.  An
  entry (5000·t + r, q) of the output is therefore the sum over k of features(5000·t + r, k) · weight(k, q):
  the entry of the whole product.  The blocks tile the output, so the output array is the whole product.
-/
import proofs.«168262_j40123584479271_1_alg».proof.Proof.Gen.KernelIdeal.Frame
import proofs.«168262_j40123584479271_1_alg».proof.Proof.GraphConv
import proofs.«168262_j40123584479271_1_alg».proof.Proof.LibDense
import Idealize.ShloMosaic.Lib.Pipeline.Value
import Idealize.ShloMosaic.Lib.ValueIdx

set_option maxRecDepth 16384

noncomputable section

namespace Cert.KernelIdeal.Hand.Dense16

open Idealize.ShloMosaic Idealize.ShloMosaic.TcCoe Idealize.ShloMosaic.ValueIdx Idealize.SL.Sem
open Idealize.ShloMosaic.Pipeline (Dat)
open Cert.KernelIdeal Cert.KernelIdeal.Gen
open Cert.Hand.Dense Cert.Hand.GraphConv

-- the device's buffer contents when the grid is entered: any contents
variable (V : (c : Dev nD) → (b : Ref sig .tc) → Buf (Elt Ideal) ((c : Thread nD τ).loc b))

theorem origin : (![0, 0] : Fin 2 → Nat) = fun _ => 0 := funext fun a => by fin_cases a <;> rfl

/-- What one grid point stores, at row r and column q of its block: row r of the point's feature block against
    column q of the weight (the operands' narrower float format changes nothing over the extended reals). -/
theorem block_product_entry (x0 : Vec Ideal S5000x256 .f32) (x1 : Vec Ideal S256x16 .f32) (r : Fin 5000) (q : Fin 16) :
    k0_pay1 (F := Ideal) x0 x1 (ix2 r q) = lin x0 (col x1 q) r := by
  unfold k0_pay1
  exact matmul_entry (M := 5000) (K := 256) (N := 16) none _ _ r q

/-- The whole product at row R and column q: row R of the features against column q of the weight. -/
theorem whole_product_entry (X : (⟨Cert.ReferenceIdeal.S100000x256, .f32⟩ : BufTy).Contents (Elt Ideal))
    (W : (⟨Cert.ReferenceIdeal.S256x16, .f32⟩ : BufTy).Contents (Elt Ideal)) (R : Fin 100000) (q : Fin 16) :
    dense16 (F := Ideal) X W (ix2 R q) = lin X (col W q) R := by
  unfold dense16
  exact dot_entry (M := 100000) (K := 256) (N := 16) none .single X W R q

/-- Where each window's block sits at grid point t: the feature block and the output block are the t-th block of
    5000 rows, the weight block is the whole weight. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's feature block is row 5000·t + r of the features. -/
theorem features_block (c : Dev nD) (t : Fin cfg0.N) (r : Fin 5000) (k : Fin 256) (R : Fin 100000)
    (hR : R.val = 5000 * t.val + r.val) :
    (iblk0 V c 0 t : Vec Ideal S5000x256 .f32) (ix2 r k) = (V c main_arg0 : S100000x256.Idx → EReal) (ix2 R k) := by
  obtain ⟨h00, h01, -, -, -, -⟩ := block_positions t
  unfold iblk0
  show V c main_arg0 (((cfg0.win 0).blk t).view.emb (ix2 r k)) = V c main_arg0 (ix2 R k)
  congr 1
  funext a
  apply Fin.ext
  match a with
  | ⟨0, _⟩ => show win0_0.index t (0 : Fin 2) * 5000 + 1 * r.val = R.val; rw [h00, hR]; omega
  | ⟨1, _⟩ => show win0_0.index t (1 : Fin 2) * 256 + 1 * k.val = k.val; rw [h01]; omega

/-- Every point's weight block is the weight. -/
theorem weight_block (c : Dev nD) (t : Fin cfg0.N) (k : Fin 256) (q : Fin 16) :
    (iblk0 V c 1 t : Vec Ideal S256x16 .f32) (ix2 k q) = (V c main_arg2 : S256x16.Idx → EReal) (ix2 k q) := by
  obtain ⟨-, -, h10, h11, -, -⟩ := block_positions t
  unfold iblk0
  show V c main_arg2 (((cfg0.win 1).blk t).view.emb (ix2 k q)) = V c main_arg2 (ix2 k q)
  congr 1
  funext a
  apply Fin.ext
  match a with
  | ⟨0, _⟩ => show win0_1.index t (0 : Fin 2) * 256 + 1 * k.val = k.val; rw [h10]; omega
  | ⟨1, _⟩ => show win0_1.index t (1 : Fin 2) * 16 + 1 * q.val = q.val; rw [h11]; omega

/-- What point t writes back is block t of the whole product of the arrays the grid was entered with. -/
theorem written_back (c : Dev nD) (t : Fin cfg0.N) :
    (dat0 V c).flushed 2 t = ((cfg0.win 2).blk t).view.read (Elt Ideal) (dense16 (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x16) origin]
  obtain ⟨-, -, -, -, h20, h21⟩ := block_positions t
  have hN : t.val < 20 := by have h1 := t.isLt; have h2 : cfg0.N = 20 := N_0; omega
  funext j
  have hr : (j 0).val < 5000 := (j 0).isLt
  have hq : (j 1).val < 16 := (j 1).isLt
  obtain ⟨r, q, rfl⟩ : ∃ (r : Fin 5000) (q : Fin 16), j = ix2 r q :=
    ⟨⟨(j 0).val, hr⟩, ⟨(j 1).val, hq⟩, funext fun a => by match a with | ⟨0, _⟩ => rfl | ⟨1, _⟩ => rfl⟩
  show k0_pay1 (iblk0 V c 0 t) (iblk0 V c 1 t) (ix2 r q)
    = dense16 (V c main_arg0) (V c main_arg2) (((cfg0.win 2).blk t).view.emb (ix2 r q))
  have hRlt : 5000 * t.val + r.val < 100000 := by have := r.isLt; omega
  have eo : ((cfg0.win 2).blk t).view.emb (ix2 r q) = ix2 (⟨5000 * t.val + r.val, hRlt⟩ : Fin 100000) q := by
    funext a
    apply Fin.ext
    match a with
    | ⟨0, _⟩ => show win0_2.index t (0 : Fin 2) * 5000 + 1 * r.val = 5000 * t.val + r.val; rw [h20]; omega
    | ⟨1, _⟩ => show win0_2.index t (1 : Fin 2) * 16 + 1 * q.val = q.val; rw [h21]; omega
  refine (block_product_entry (iblk0 V c 0 t) (iblk0 V c 1 t) r q).trans ?_
  rw [eo]
  refine Eq.trans ?_ (whole_product_entry (V c main_arg0) (V c main_arg2) ⟨5000 * t.val + r.val, hRlt⟩ q).symm
  unfold lin
  refine Finset.sum_congr rfl fun k _ => ?_
  rw [col_apply, col_apply, features_block V c t r k ⟨5000 * t.val + r.val, hRlt⟩ rfl, weight_block V c t k q]

/-- An entry of the output array lies in point t's block exactly when its coordinates lie in the block's ranges. -/
theorem in_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- The 20 blocks of 5000 rows tile the output array: row R is in block R / 5000. -/
theorem blocks_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, h20, h21⟩ := block_positions t
  refine ⟨t, flush0_2 t, ?_⟩
  rw [in_block]
  intro a
  match a with
  | ⟨0, _⟩ =>
    show win0_2.index t (0 : Fin 2) * 5000 ≤ (i 0).val ∧ (i 0).val < win0_2.index t (0 : Fin 2) * 5000 + 5000
    rw [h20, ht]; omega
  | ⟨1, _⟩ =>
    show win0_2.index t (1 : Fin 2) * 16 ≤ (i 1).val ∧ (i 1).val < win0_2.index t (1 : Fin 2) * 16 + 16
    rw [h21]; omega

/-- After the last grid point the output array holds the whole product of the arrays the grid was entered with. -/
theorem product_whole (c : Dev nD) :
    (dat0 V c).arrAt 2 cfg0.N = dense16 (V c main_arg0) (V c main_arg2) :=
  (dat0 V c).arrAt_eq_of_cover 2 _ (fun t _ => written_back V c t) blocks_cover

end Cert.KernelIdeal.Hand.Dense16

end
-- ==== Proof.DenseBlocks10.lean ====
/-
  The second dense product, computed block by block, is the whole product.

  The 100000 × 16 hidden features are cut into 20 blocks of 5000 rows.  Grid point t multiplies block t by the
  whole 16 × 10 weight, accumulating into zero, and writes the 5000 × 10 result back as block t of the output.
  An entry (5000·t + r, q) of the output is therefore the sum over k of hidden(5000·t + r, k) · weight(k, q):
  the entry of the whole product.  The blocks tile the output, so the output array is the whole product.
-/
import proofs.«168262_j40123584479271_1_alg».proof.Proof.Gen.KernelIdeal.Frame
import proofs.«168262_j40123584479271_1_alg».proof.Proof.GraphConv
import proofs.«168262_j40123584479271_1_alg».proof.Proof.LibDense
import Idealize.ShloMosaic.Lib.Pipeline.Value
import Idealize.ShloMosaic.Lib.ValueIdx

set_option maxRecDepth 16384

noncomputable section

namespace Cert.KernelIdeal.Hand.Dense10

open Idealize.ShloMosaic Idealize.ShloMosaic.TcCoe Idealize.ShloMosaic.ValueIdx Idealize.SL.Sem
open Idealize.ShloMosaic.Pipeline (Dat)
open Cert.KernelIdeal Cert.KernelIdeal.Gen
open Cert.Hand.Dense Cert.Hand.GraphConv

-- the device's buffer contents when the grid is entered: any contents
variable (V : (c : Dev nD) → (b : Ref sig .tc) → Buf (Elt Ideal) ((c : Thread nD τ).loc b))

theorem origin : (![0, 0] : Fin 2 → Nat) = fun _ => 0 := funext fun a => by fin_cases a <;> rfl

/-- What one grid point stores, at row r and column q of its block: row r of the point's feature block against
    column q of the weight (the operands' narrower float format changes nothing over the extended reals). -/
theorem block_product_entry (x0 : Vec Ideal S5000x16 .f32) (x1 : Vec Ideal S16x10 .f32) (r : Fin 5000) (q : Fin 10) :
    k1_pay1 (F := Ideal) x0 x1 (ix2 r q) = lin x0 (col x1 q) r := by
  unfold k1_pay1
  refine Eq.trans (matmul_entry (M := 5000) (K := 16) (N := 10) none _ _ r q) ?_
  rw [shapeCast_self]
  rfl

/-- The whole product at row R and column q: row R of the features against column q of the weight. -/
theorem whole_product_entry (X : (⟨Cert.ReferenceIdeal.S100000x16, .f32⟩ : BufTy).Contents (Elt Ideal))
    (W : (⟨Cert.ReferenceIdeal.S16x10, .f32⟩ : BufTy).Contents (Elt Ideal)) (R : Fin 100000) (q : Fin 10) :
    dense10 (F := Ideal) X W (ix2 R q) = lin X (col W q) R := by
  unfold dense10
  exact dot_entry (M := 100000) (K := 16) (N := 10) none .single X W R q

/-- Where each window's block sits at grid point t: the feature block and the output block are the t-th block of
    5000 rows, the weight block is the whole weight. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of point t's feature block is row 5000·t + r of the features. -/
theorem features_block (c : Dev nD) (t : Fin cfg1.N) (r : Fin 5000) (k : Fin 16) (R : Fin 100000)
    (hR : R.val = 5000 * t.val + r.val) :
    (iblk1 V c 0 t : Vec Ideal S5000x16 .f32) (ix2 r k) = (V c main_v18 : S100000x16.Idx → EReal) (ix2 R k) := by
  obtain ⟨h00, h01, -, -, -, -⟩ := block_positions t
  unfold iblk1
  show V c main_v18 (((cfg1.win 0).blk t).view.emb (ix2 r k)) = V c main_v18 (ix2 R k)
  congr 1
  funext a
  apply Fin.ext
  match a with
  | ⟨0, _⟩ => show win1_0.index t (0 : Fin 2) * 5000 + 1 * r.val = R.val; rw [h00, hR]; omega
  | ⟨1, _⟩ => show win1_0.index t (1 : Fin 2) * 16 + 1 * k.val = k.val; rw [h01]; omega

/-- Every point's weight block is the weight. -/
theorem weight_block (c : Dev nD) (t : Fin cfg1.N) (k : Fin 16) (q : Fin 10) :
    (iblk1 V c 1 t : Vec Ideal S16x10 .f32) (ix2 k q) = (V c main_arg4 : S16x10.Idx → EReal) (ix2 k q) := by
  obtain ⟨-, -, h10, h11, -, -⟩ := block_positions t
  unfold iblk1
  show V c main_arg4 (((cfg1.win 1).blk t).view.emb (ix2 k q)) = V c main_arg4 (ix2 k q)
  congr 1
  funext a
  apply Fin.ext
  match a with
  | ⟨0, _⟩ => show win1_1.index t (0 : Fin 2) * 16 + 1 * k.val = k.val; rw [h10]; omega
  | ⟨1, _⟩ => show win1_1.index t (1 : Fin 2) * 10 + 1 * q.val = q.val; rw [h11]; omega

/-- What point t writes back is block t of the whole product of the arrays the grid was entered with. -/
theorem written_back (c : Dev nD) (t : Fin cfg1.N) :
    (dat1 V c).flushed 2 t = ((cfg1.win 2).blk t).view.read (Elt Ideal) (dense10 (V c main_v18) (V c main_arg4)) := by
  show (cfg1.win 2).cut (grid1.coords t) ((dat1 V c).after 2 t) = _
  rw [after1_2]
  unfold out1_2
  rw [View.canon_unit_zero origin]
  simp only [View.ld_unit_zero (S := S5000x16) origin, View.ld_unit_zero (S := S16x10) origin]
  obtain ⟨-, -, -, -, h20, h21⟩ := block_positions t
  have hN : t.val < 20 := by have h1 := t.isLt; have h2 : cfg1.N = 20 := N_1; omega
  funext j
  have hr : (j 0).val < 5000 := (j 0).isLt
  have hq : (j 1).val < 10 := (j 1).isLt
  obtain ⟨r, q, rfl⟩ : ∃ (r : Fin 5000) (q : Fin 10), j = ix2 r q :=
    ⟨⟨(j 0).val, hr⟩, ⟨(j 1).val, hq⟩, funext fun a => by match a with | ⟨0, _⟩ => rfl | ⟨1, _⟩ => rfl⟩
  show k1_pay1 (iblk1 V c 0 t) (iblk1 V c 1 t) (ix2 r q)
    = dense10 (V c main_v18) (V c main_arg4) (((cfg1.win 2).blk t).view.emb (ix2 r q))
  have hRlt : 5000 * t.val + r.val < 100000 := by have := r.isLt; omega
  have eo : ((cfg1.win 2).blk t).view.emb (ix2 r q) = ix2 (⟨5000 * t.val + r.val, hRlt⟩ : Fin 100000) q := by
    funext a
    apply Fin.ext
    match a with
    | ⟨0, _⟩ => show win1_2.index t (0 : Fin 2) * 5000 + 1 * r.val = 5000 * t.val + r.val; rw [h20]; omega
    | ⟨1, _⟩ => show win1_2.index t (1 : Fin 2) * 10 + 1 * q.val = q.val; rw [h21]; omega
  refine (block_product_entry (iblk1 V c 0 t) (iblk1 V c 1 t) r q).trans ?_
  rw [eo]
  refine Eq.trans ?_ (whole_product_entry (V c main_v18) (V c main_arg4) ⟨5000 * t.val + r.val, hRlt⟩ q).symm
  unfold lin
  refine Finset.sum_congr rfl fun k _ => ?_
  rw [col_apply, col_apply, features_block V c t r k ⟨5000 * t.val + r.val, hRlt⟩ rfl, weight_block V c t k q]

/-- An entry of the output array lies in point t's block exactly when its coordinates lie in the block's ranges. -/
theorem in_block (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v19).slice (win1_2.rect t)).set ↔ _
  rw [View.set_slice_whole, Rect.mem_set_unit]
  exact Iff.rfl

/-- The 20 blocks of 5000 rows tile the output array: row R is in block R / 5000. -/
theorem blocks_cover (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, h20, h21⟩ := block_positions t
  refine ⟨t, flush1_2 t, ?_⟩
  rw [in_block]
  intro a
  match a with
  | ⟨0, _⟩ =>
    show win1_2.index t (0 : Fin 2) * 5000 ≤ (i 0).val ∧ (i 0).val < win1_2.index t (0 : Fin 2) * 5000 + 5000
    rw [h20, ht]; omega
  | ⟨1, _⟩ =>
    show win1_2.index t (1 : Fin 2) * 10 ≤ (i 1).val ∧ (i 1).val < win1_2.index t (1 : Fin 2) * 10 + 10
    rw [h21]; omega

/-- After the last grid point the output array holds the whole product of the arrays the grid was entered with. -/
theorem product_whole (c : Dev nD) :
    (dat1 V c).arrAt 2 cfg1.N = dense10 (V c main_v18) (V c main_arg4) :=
  (dat1 V c).arrAt_eq_of_cover 2 _ (fun t _ => written_back V c t) blocks_cover

end Cert.KernelIdeal.Hand.Dense10

end
-- ==== Proof.Aggregation.lean ====
/-
  The two aggregations as the kernel program's host operations compute them, from any buffer contents.

  Layer 1's host operations (wrap the sources, look up the product's rows there, sum them into the targets' rows
  starting from zero, add the bias) followed by the rectifier's, and layer 2's host operations, are read here as
  functions of the contents they start from: whatever those contents are, if the buffers read hold the sources,
  the targets, the bias and the dense product, the buffer written last holds the layer's output.
-/
import proofs.«168262_j40123584479271_1_alg».proof.Proof.Gen.KernelIdeal.Launch
import proofs.«168262_j40123584479271_1_alg».proof.Proof.GraphConv
import Idealize.ShloMosaic.Lib.StableHlo.Run
import Idealize.ShloMosaic.PureOps.Ideal

set_option maxRecDepth 16384

noncomputable section

namespace Cert.KernelIdeal.Hand.Aggregation

open Idealize.ShloMosaic Idealize.ShloMosaic.TcCoe Idealize.ShloMosaic.StableHlo Idealize.SL.Sem
open Cert.KernelIdeal Cert.KernelIdeal.Gen
open Cert.Hand.GraphConv

/-! ## The rectifier's buffers

The rectifier is a called function; its three values (the zero, the zero spread over the array, the maximum) live in
buffers whose types are those values' types, so a value written to or read from its buffer is the value itself. -/

theorem write_maximum (h1 h2 h3) (v : (⟨S100000x16, .f32⟩ : BufTy).Contents (Elt Ideal)) :
    (TRef.of (sig := sig) (T := ⟨S100000x16, .f32⟩) main_v18 h1 h2 h3).toBuf v = v := rfl
theorem read_argument (h1 h2 h3) (v : (⟨S100000x16, .f32⟩ : BufTy).Contents (Elt Ideal)) :
    (TRef.of (sig := sig) (T := ⟨S100000x16, .f32⟩) main_v17 h1 h2 h3).ofBuf v = v := rfl
theorem write_zeros (h1 h2 h3) (v : (⟨S100000x16, .f32⟩ : BufTy).Contents (Elt Ideal)) :
    (TRef.of (sig := sig) (T := ⟨S100000x16, .f32⟩) main_call0_v0 h1 h2 h3).toBuf v = v := rfl
theorem read_zeros (h1 h2 h3) (v : (⟨S100000x16, .f32⟩ : BufTy).Contents (Elt Ideal)) :
    (TRef.of (sig := sig) (T := ⟨S100000x16, .f32⟩) main_call0_v0 h1 h2 h3).ofBuf v = v := rfl
theorem write_zero (h1 h2 h3) (v : (⟨S_, .f32⟩ : BufTy).Contents (Elt Ideal)) :
    (TRef.of (sig := sig) (T := ⟨S_, .f32⟩) main_call0_cst h1 h2 h3).toBuf v = v := rfl
theorem read_zero (h1 h2 h3) (v : (⟨S_, .f32⟩ : BufTy).Contents (Elt Ideal)) :
    (TRef.of (sig := sig) (T := ⟨S_, .f32⟩) main_call0_cst h1 h2 h3).ofBuf v = v := rfl

/-! ## The layers -/

-- the device's buffer contents before the host operations: any contents
variable (Wv : Valuation τ sig (Elt Ideal))

/-- Layer 1 after its dense product, then the rectifier: the hidden features' buffer. -/
theorem layer1 (p : (⟨Cert.ReferenceIdeal.S100000x16, .f32⟩ : BufTy).Contents (Elt Ideal)) (e : (⟨Cert.ReferenceIdeal.S2x3200000, .i32⟩ : BufTy).Contents (Elt Ideal)) (b : (⟨Cert.ReferenceIdeal.S16, .f32⟩ : BufTy).Contents (Elt Ideal))
    (hs : Wv (Proc.devRef .tc main_v1) = sources e) (ht : Wv (Proc.devRef .tc main_v3) = targets e)
    (hb : Wv (Proc.devRef .tc main_arg3) = b) (hp : Wv (Proc.devRef .tc main_v4) = p) :
    StableHlo.after hostOps1_1 (StableHlo.after hostOps1 Wv) (Proc.devRef .tc main_v18) = rectify (gather_sum16 p e b) := by
  after_results_simp
  rw [hs, ht, hb, hp]
  rw [write_maximum, read_argument, read_zeros, write_zeros, read_zero, write_zero]
  rfl

/-- Layer 2 after its dense product: the result buffer. -/
theorem layer2 (p : (⟨Cert.ReferenceIdeal.S100000x10, .f32⟩ : BufTy).Contents (Elt Ideal)) (e : (⟨Cert.ReferenceIdeal.S2x3200000, .i32⟩ : BufTy).Contents (Elt Ideal)) (b : (⟨Cert.ReferenceIdeal.S10, .f32⟩ : BufTy).Contents (Elt Ideal))
    (hs : Wv (Proc.devRef .tc main_v1) = sources e) (ht : Wv (Proc.devRef .tc main_v3) = targets e)
    (hb : Wv (Proc.devRef .tc main_arg5) = b) (hp : Wv (Proc.devRef .tc main_v19) = p) :
    StableHlo.after hostOps2 Wv (Proc.devRef .tc main_v32) = gather_sum10 p e b := by
  after_results_simp
  rw [hs, ht, hb, hp]
  rfl

end Cert.KernelIdeal.Hand.Aggregation

end
-- ==== Proof.BoundaryFold.lean ====
/-
  The idealized kernel's result buffer holds the network's output.

  The run passes through seven boundaries.  Between them: the host operations that cut the edge list into its
  sources and targets; the first dense product (block by block, proved to be the whole product); the host
  operations of the first aggregation (lookup at the sources, sum into the targets, bias) and the rectifier;
  the second dense product; the host operations of the second aggregation.  Each buffer is followed from the
  boundary where it is written to the boundaries where it is read: a segment that does not write a buffer
  leaves it as it was.  At the last boundary the result buffer is the network of the launch contents of the
  six arguments.
-/
import proofs.«168262_j40123584479271_1_alg».proof.Proof.Gen.KernelIdeal.Frame
import proofs.«168262_j40123584479271_1_alg».proof.Proof.GraphConv
import proofs.«168262_j40123584479271_1_alg».proof.Proof.DenseBlocks16
import proofs.«168262_j40123584479271_1_alg».proof.Proof.DenseBlocks10
import proofs.«168262_j40123584479271_1_alg».proof.Proof.Aggregation
import Idealize.ShloMosaic.Lib.StableHlo.Run

set_option maxRecDepth 16384

noncomputable section

namespace Cert.KernelIdeal.Hand.Fold

open Idealize.ShloMosaic Idealize.ShloMosaic.TcCoe Idealize.ShloMosaic.StableHlo Idealize.SL.Sem
open Cert.KernelIdeal Cert.KernelIdeal.Gen
open Cert.Hand.GraphConv

variable (m : (ℓ : Loc nD τ sig) → Buf (Elt Ideal) ℓ) (ρ : Dev nD → PrngReg)

/-! ## After the edge list is cut -/

/-- The sources are row 0 of the edge list. -/
theorem sources_cut (c : Dev nD) : W1 m ρ c (Proc.devRef .tc main_v1) = sources (m ((c : Thread nD τ).loc main_arg1)) := by
  show StableHlo.after hostOps0 (W0 m ρ c) (Proc.devRef .tc main_v1) = _
  after_results
  rfl

/-- The targets are row 1 of the edge list. -/
theorem targets_cut (c : Dev nD) : W1 m ρ c (Proc.devRef .tc main_v3) = targets (m ((c : Thread nD τ).loc main_arg1)) := by
  show StableHlo.after hostOps0 (W0 m ρ c) (Proc.devRef .tc main_v3) = _
  after_results
  rfl

/-- Cutting the edge list leaves main_arg0 as launched. -/
theorem main_arg0_cut (c : Dev nD) : W1 m ρ c (Proc.devRef .tc main_arg0) = m ((c : Thread nD τ).loc main_arg0) := by
  show StableHlo.after hostOps0 (W0 m ρ c) (Proc.devRef .tc main_arg0) = _
  after_results

/-- Cutting the edge list leaves main_arg2 as launched. -/
theorem main_arg2_cut (c : Dev nD) : W1 m ρ c (Proc.devRef .tc main_arg2) = m ((c : Thread nD τ).loc main_arg2) := by
  show StableHlo.after hostOps0 (W0 m ρ c) (Proc.devRef .tc main_arg2) = _
  after_results

/-- Cutting the edge list leaves main_arg3 as launched. -/
theorem main_arg3_cut (c : Dev nD) : W1 m ρ c (Proc.devRef .tc main_arg3) = m ((c : Thread nD τ).loc main_arg3) := by
  show StableHlo.after hostOps0 (W0 m ρ c) (Proc.devRef .tc main_arg3) = _
  after_results

/-- Cutting the edge list leaves main_arg4 as launched. -/
theorem main_arg4_cut (c : Dev nD) : W1 m ρ c (Proc.devRef .tc main_arg4) = m ((c : Thread nD τ).loc main_arg4) := by
  show StableHlo.after hostOps0 (W0 m ρ c) (Proc.devRef .tc main_arg4) = _
  after_results

/-- Cutting the edge list leaves main_arg5 as launched. -/
theorem main_arg5_cut (c : Dev nD) : W1 m ρ c (Proc.devRef .tc main_arg5) = m ((c : Thread nD τ).loc main_arg5) := by
  show StableHlo.after hostOps0 (W0 m ρ c) (Proc.devRef .tc main_arg5) = _
  after_results

/-! ## After the first dense product -/

/-- The first dense product's output array is the whole product of the features and the first weight. -/
theorem product16 (c : Dev nD) : W2 m ρ c (Proc.devRef .tc main_v4) = dense16 (m ((c : Thread nD τ).loc main_arg0)) (m ((c : Thread nD τ).loc main_arg2)) :=
  (W2_arr m ρ c 2).trans ((Dense16.product_whole (V1 m ρ) c).trans
    (congrArg₂ dense16 (main_arg0_cut m ρ c) (main_arg2_cut m ρ c)))

theorem sources_16 (c : Dev nD) : W2 m ρ c (Proc.devRef .tc main_v1) = sources (m ((c : Thread nD τ).loc main_arg1)) :=
  (W2_of_ne m ρ c main_v1 (by decide)).trans (sources_cut m ρ c)
theorem targets_16 (c : Dev nD) : W2 m ρ c (Proc.devRef .tc main_v3) = targets (m ((c : Thread nD τ).loc main_arg1)) :=
  (W2_of_ne m ρ c main_v3 (by decide)).trans (targets_cut m ρ c)
theorem main_arg3_16 (c : Dev nD) : W2 m ρ c (Proc.devRef .tc main_arg3) = m ((c : Thread nD τ).loc main_arg3) :=
  (W2_of_ne m ρ c main_arg3 (by decide)).trans (main_arg3_cut m ρ c)
theorem main_arg4_16 (c : Dev nD) : W2 m ρ c (Proc.devRef .tc main_arg4) = m ((c : Thread nD τ).loc main_arg4) :=
  (W2_of_ne m ρ c main_arg4 (by decide)).trans (main_arg4_cut m ρ c)
theorem main_arg5_16 (c : Dev nD) : W2 m ρ c (Proc.devRef .tc main_arg5) = m ((c : Thread nD τ).loc main_arg5) :=
  (W2_of_ne m ρ c main_arg5 (by decide)).trans (main_arg5_cut m ρ c)

/-! ## After the first aggregation and the rectifier -/

/-- The hidden features: the first aggregation of the first product, rectified. -/
theorem hidden_features (c : Dev nD) :
    W4 m ρ c (Proc.devRef .tc main_v18) = hidden (m ((c : Thread nD τ).loc main_arg0)) (m ((c : Thread nD τ).loc main_arg1)) (m ((c : Thread nD τ).loc main_arg2)) (m ((c : Thread nD τ).loc main_arg3)) :=
  Aggregation.layer1 (W2 m ρ c) _ _ _ (sources_16 m ρ c) (targets_16 m ρ c) (main_arg3_16 m ρ c) (product16 m ρ c)

/-- The first aggregation and the rectifier leave main_v1 as it was. -/
theorem sources_hidden (c : Dev nD) : W4 m ρ c (Proc.devRef .tc main_v1) = sources (m ((c : Thread nD τ).loc main_arg1)) := by
  show StableHlo.after hostOps1_1 (StableHlo.after hostOps1 (W2 m ρ c)) (Proc.devRef .tc main_v1) = _
  after_results
  exact sources_16 m ρ c

/-- The first aggregation and the rectifier leave main_v3 as it was. -/
theorem targets_hidden (c : Dev nD) : W4 m ρ c (Proc.devRef .tc main_v3) = targets (m ((c : Thread nD τ).loc main_arg1)) := by
  show StableHlo.after hostOps1_1 (StableHlo.after hostOps1 (W2 m ρ c)) (Proc.devRef .tc main_v3) = _
  after_results
  exact targets_16 m ρ c

/-- The first aggregation and the rectifier leave main_arg4 as it was. -/
theorem main_arg4_hidden (c : Dev nD) : W4 m ρ c (Proc.devRef .tc main_arg4) = m ((c : Thread nD τ).loc main_arg4) := by
  show StableHlo.after hostOps1_1 (StableHlo.after hostOps1 (W2 m ρ c)) (Proc.devRef .tc main_arg4) = _
  after_results
  exact main_arg4_16 m ρ c

/-- The first aggregation and the rectifier leave main_arg5 as it was. -/
theorem main_arg5_hidden (c : Dev nD) : W4 m ρ c (Proc.devRef .tc main_arg5) = m ((c : Thread nD τ).loc main_arg5) := by
  show StableHlo.after hostOps1_1 (StableHlo.after hostOps1 (W2 m ρ c)) (Proc.devRef .tc main_arg5) = _
  after_results
  exact main_arg5_16 m ρ c

/-! ## After the second dense product -/

/-- The second dense product's output array is the whole product of the hidden features and the second weight. -/
theorem product10 (c : Dev nD) :
    W5 m ρ c (Proc.devRef .tc main_v19) = dense10 (hidden (m ((c : Thread nD τ).loc main_arg0)) (m ((c : Thread nD τ).loc main_arg1)) (m ((c : Thread nD τ).loc main_arg2)) (m ((c : Thread nD τ).loc main_arg3))) (m ((c : Thread nD τ).loc main_arg4)) :=
  (W5_arr m ρ c 2).trans ((Dense10.product_whole (V4 m ρ) c).trans
    (congrArg₂ dense10 (hidden_features m ρ c) (main_arg4_hidden m ρ c)))

theorem sources_10 (c : Dev nD) : W5 m ρ c (Proc.devRef .tc main_v1) = sources (m ((c : Thread nD τ).loc main_arg1)) :=
  (W5_of_ne m ρ c main_v1 (by decide)).trans (sources_hidden m ρ c)
theorem targets_10 (c : Dev nD) : W5 m ρ c (Proc.devRef .tc main_v3) = targets (m ((c : Thread nD τ).loc main_arg1)) :=
  (W5_of_ne m ρ c main_v3 (by decide)).trans (targets_hidden m ρ c)
theorem main_arg5_10 (c : Dev nD) : W5 m ρ c (Proc.devRef .tc main_arg5) = m ((c : Thread nD τ).loc main_arg5) :=
  (W5_of_ne m ρ c main_arg5 (by decide)).trans (main_arg5_hidden m ρ c)

/-! ## After the second aggregation -/

/-- The result buffer at the last boundary is the network of the six arguments as launched. -/
theorem result_value (c : Dev nD) :
    W6 m ρ c (Proc.devRef .tc main_v32) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Aggregation.layer2 (W5 m ρ c) _ _ _ (sources_10 m ρ c) (targets_10 m ρ c) (main_arg5_10 m ρ c) (product10 m ρ c)

end Cert.KernelIdeal.Hand.Fold

end
-- ==== Proof.lean ====
/-
  A two-layer graph convolution: the kernel program against its reference, over the extended reals.

  Both programs compute, for node features x (100000 × 256), an edge list (2 × 3200000: sources and targets),
  weights W1 (256 × 16), W2 (16 × 10) and biases b1, b2,

      h   = max(A(x · W1) + b1, 0),        out = A(h · W2) + b2,

  where A sums, into each node's row, the rows of its argument at the sources of the edges that end in that
  node.  They differ only in the two dense products: the reference takes each as one whole product, the kernel
  computes each on a grid of 20 blocks of 5000 rows, every block a product accumulated into zero with its
  operands first cast to a narrower float format.  Over the extended reals the cast is the identity and a
  product accumulated into zero is the product, so each block is the matching block of the whole product, and the
  blocks tile the output (Proof/DenseBlocks16, Proof/DenseBlocks10).  Every other operation is the same operation
  applied to equal operands (Proof/GraphConv names that common part once; Proof/BoundaryFold follows the kernel's
  buffers through its run).  No law used needs finite entries, so the precondition is not opened.

  The three frame claims: the two kernel programs by their generated frames; the reference by its generated run
  with the result forgotten.  The kernel's idealization rewrote nothing, so there is nothing to preserve.
-/
import proofs.«168262_j40123584479271_1_alg».proof.Defs
import proofs.«168262_j40123584479271_1_alg».proof.Proof.Gen.Kernel
import proofs.«168262_j40123584479271_1_alg».proof.Proof.Gen.Kernel.Frame
import proofs.«168262_j40123584479271_1_alg».proof.Proof.Gen.KernelIdeal
import proofs.«168262_j40123584479271_1_alg».proof.Proof.Gen.KernelIdeal.Frame
import proofs.«168262_j40123584479271_1_alg».proof.Proof.Gen.ReferenceIdeal
import proofs.«168262_j40123584479271_1_alg».proof.Proof.Gen.ReferenceIdeal.Run
import proofs.«168262_j40123584479271_1_alg».proof.Proof.Gen.Pre_finite_inputs
import proofs.«168262_j40123584479271_1_alg».proof.Proof.GraphConv
import proofs.«168262_j40123584479271_1_alg».proof.Proof.KernelRun
import proofs.«168262_j40123584479271_1_alg».proof.Proof.BoundaryFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the network of those arguments in
    their result buffer: the kernel by its run followed through its boundaries, the reference because its run's
    composed term is the network, operation by operation. -/
theorem algebraic : Cert.algebraic_KernelIdeal_ReferenceIdeal := by
  intro m ρ m' ρ' _ hagree
  refine ⟨fun c => Cert.Hand.GraphConv.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.Fold.result_value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
